-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S1024x64 : Shape := ⟨2, ![1024, 64]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S16x4096x1024 .f32) (main_arg1 : FVec F S1024x64 .f32) (main_arg2 : FVec F S1024x64 .f32) (main_arg3 : FVec F S1024x64 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S16x4096x1024 : Shape := ⟨3, ![16, 4096, 1024]⟩
abbrev S1024x64 : Shape := ⟨2, ![1024, 64]⟩
abbrev S65536x1024 : Shape := ⟨2, ![65536, 1024]⟩
abbrev S65536x64 : Shape := ⟨2, ![65536, 64]⟩
abbrev S2048x1024 : Shape := ⟨2, ![2048, 1024]⟩
abbrev S2048x64 : Shape := ⟨2, ![2048, 64]⟩
abbrev S16x4096x64 : Shape := ⟨3, ![16, 4096, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S512x4096 : Shape := ⟨2, ![512, 4096]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S65536x1024, .f32⟩
  | .hbm, ⟨5, _⟩ => ⟨S65536x64, .bf16⟩
  | .hbm, ⟨6, _⟩ => ⟨S65536x64, .bf16⟩
  | .hbm, ⟨7, _⟩ => ⟨S65536x64, .bf16⟩
  | .hbm, ⟨8, _⟩ => ⟨S16x4096x64, .bf16⟩
  | .hbm, ⟨9, _⟩ => ⟨S16x4096x64, .bf16⟩
  | .hbm, ⟨10, _⟩ => ⟨S16x4096x64, .bf16⟩
  | .hbm, ⟨11, _⟩ => ⟨S16x4096x64, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | .local _ .vmem, ⟨9, _⟩ => ⟨S2048x64, .bf16⟩
  | .local _ .vmem, ⟨10, _⟩ => ⟨S2048x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x4096x64, .bf16⟩
  | .local _ .vmem, ⟨16, _⟩ => ⟨S1x4096x64, .bf16⟩
  | .local _ .vmem, ⟨17, _⟩ => ⟨S1x512x64, .f32⟩
  | .local _ .vmem, ⟨18, _⟩ => ⟨S1x512x64, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16x4096x1024_S65536x1024 : S16x4096x1024.ShapeCasts S65536x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  shapeCasts_S65536x64_S16x4096x64 : S65536x64.ShapeCasts S16x4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S512x4096_S512 : S512x4096.Reduces [1] S512
  shapeCasts_S512_S512x1 : S512.ShapeCasts S512x1
  broadcasts_S512x1_S512x4096 : S512x1.Broadcasts S512x4096
  broadcasts_S512x1_S512x64 : S512x1.Broadcasts S512x64
  shapeCasts_S512x64_S1x512x64 : S512x64.ShapeCasts S1x512x64
  dot_S2048x1024_S1024x64_S2048x64_1_0_0_1_n_n_wf : DotDims.WF S2048x1024 S1024x64 S2048x64 [1] [0] [0] [1] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S65536x64.size a
  hwx0_4 : ∀ i : grid0.Coords, EltTy.bits .bf16 = 32 ∨ (Rect.block (s := S65536x64) S2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S65536x64.size a
  hwx0_5 : ∀ i : grid0.Coords, EltTy.bits .bf16 = 32 ∨ (Rect.block (s := S65536x64) S2048x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S65536x64.size a
  hwx0_6 : ∀ i : grid0.Coords, EltTy.bits .bf16 = 32 ∨ (Rect.block (s := S65536x64) S2048x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S16x4096x64.size a
  hwx1_0 : ∀ i : grid1.Coords, EltTy.bits .bf16 = 32 ∨ (Rect.block (s := S16x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S16x4096x64.size a
  hwx1_1 : ∀ i : grid1.Coords, EltTy.bits .bf16 = 32 ∨ (Rect.block (s := S16x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S16x4096x64.size a
  hwx1_2 : ∀ i : grid1.Coords, EltTy.bits .bf16 = 32 ∨ (Rect.block (s := S16x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S16x4096x64.size a
  hwx1_3 : ∀ i : grid1.Coords, EltTy.bits .f32 = 32 ∨ (Rect.block (s := S16x4096x64) S1x512x64.size (cc1_transform_3 i) (hinb1_3 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x4096x1024 : Shape := ⟨3, ![16, 4096, 1024]⟩
abbrev S1024x64 : Shape := ⟨2, ![1024, 64]⟩
abbrev S16x4096x64 : Shape := ⟨3, ![16, 4096, 64]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S16x4096x64, .f32⟩
  | .hbm, ⟨5, _⟩ => ⟨S16x4096x64, .f32⟩
  | .hbm, ⟨6, _⟩ => ⟨S16x4096x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S_, .f32⟩
  | .hbm, ⟨14, _⟩ => ⟨S16x4096, .f32⟩
  | .hbm, ⟨15, _⟩ => ⟨S_, .f32⟩
  | .hbm, ⟨16, _⟩ => ⟨S16x4096, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S16x4096x1, .f32⟩
  | .hbm, ⟨25, _⟩ => ⟨S16x4096x4096, .f32⟩
  | .hbm, ⟨26, _⟩ => ⟨S16x4096x4096, .f32⟩
  | .hbm, ⟨27, _⟩ => ⟨S16x4096x64, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x1024_S1024x64_S16x4096x64_2_0_01_1_n_n_wf : DotDims.WF S16x4096x1024 S1024x64 S16x4096x64 [2] [0] [0, 1] [1] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x1024_S1024x64_S16x4096x64_2_0_01_1_n_n : DotDims S16x4096x1024 S1024x64 S16x4096x64 where
  lhsContracting := [2]
  rhsContracting := [0]
  lhsNonContracting := [0, 1]
  rhsNonContracting := [1]
  lhsBatch := []
  rhsBatch := []
  wf := dot_S16x4096x1024_S1024x64_S16x4096x64_2_0_01_1_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«129465_j23201413332995_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.ProjBody.lean ====
/-
  The projection body: what one grid point stores.

  At a grid point the body loads a 2048 × 1024 tile of the flattened activations and the three 1024 × 64 weight
  matrices whole, and stores three 2048 × 64 tiles: each is the matrix product of the activation tile with one
  weight matrix, accumulated from zero. Changes of float format are the identity on the extended reals, and the cast of
  the tile to its own shape is the identity, so entry (p, d) of a stored tile is the sum over c of
  tile (p, c) * weight (c, d).
-/
import proofs.«129465_j23201413332995_2_alg».proof.Proof.Gen.KernelIdeal.Skeleton
import proofs.«129465_j23201413332995_2_alg».proof.Proof.LibDotRecord
import Idealize.ShloMosaic.Lib.Pipeline.Value
import Idealize.ShloMosaic.Lib.ValueIdx

noncomputable section

namespace Cert.KernelIdeal.ProjBody

open Idealize.ShloMosaic Idealize.ShloMosaic.ValueIdx Cert.KernelIdeal Cert.KernelIdeal.Gen

/-- The activation tile after its cast to its own shape and its change of format is the tile. -/
theorem tile_cast (x : Vec Ideal S2048x1024 .f32) : k0_pay1 (F := Ideal) x = x := by
  unfold k0_pay1
  exact shapeCast_self x _

/-- Entry (p, d) of the product of the activation tile with a weight matrix, accumulated from zero. -/
theorem product_apply (x : Vec Ideal S2048x1024 .f32) (w : Vec Ideal S1024x64 .f32) (p : Fin 2048) (d : Fin 64) :
    (truncf .bf16 (matmul dot_S2048x1024_S1024x64_S2048x64_1_0_0_1_n_n none (k0_pay1 (F := Ideal) x)
        (truncf .bf16 w bitsLt_bf16_f32) (constant S2048x64 .f32 0x00000000#32)) bitsLt_bf16_f32 : FVec Ideal S2048x64 .bf16) (ix2 p d)
      = ∑ c : Fin 1024, x (ix2 p c) * w (ix2 c d) := by
  rw [tile_cast]
  exact DotRecord.matmul_zero_apply (M := 2048) (K := 1024) (N := 64) (φ₁ := .bf16) (φ₂ := .bf16)
    dot_S2048x1024_S1024x64_S2048x64_1_0_0_1_n_n rfl rfl rfl rfl rfl rfl x w none p d

/-- The first stored tile (the queries' projection) at (p, d). -/
theorem pay2_apply (x : Vec Ideal S2048x1024 .f32) (w : Vec Ideal S1024x64 .f32) (p : Fin 2048) (d : Fin 64) :
    k0_pay2 (F := Ideal) x w (ix2 p d) = ∑ c : Fin 1024, x (ix2 p c) * w (ix2 c d) :=
  product_apply x w p d

/-- The second stored tile (the keys' projection) at (p, d). -/
theorem pay3_apply (x : Vec Ideal S2048x1024 .f32) (w : Vec Ideal S1024x64 .f32) (p : Fin 2048) (d : Fin 64) :
    k0_pay3 (F := Ideal) x w (ix2 p d) = ∑ c : Fin 1024, x (ix2 p c) * w (ix2 c d) :=
  product_apply x w p d

/-- The third stored tile (the values' projection) at (p, d). -/
theorem pay4_apply (x : Vec Ideal S2048x1024 .f32) (w : Vec Ideal S1024x64 .f32) (p : Fin 2048) (d : Fin 64) :
    k0_pay4 (F := Ideal) x w (ix2 p d) = ∑ c : Fin 1024, x (ix2 p c) * w (ix2 c d) :=
  product_apply x w p d

/-- A stored tile is any function that agrees with the product entry by entry (the queries' tile). -/
theorem pay2_eq_of (x : Vec Ideal S2048x1024 .f32) (w : Vec Ideal S1024x64 .f32) (g : S2048x64.Idx → EReal)
    (h : ∀ (p : Fin 2048) (d : Fin 64), ∑ c : Fin 1024, x (ix2 p c) * w (ix2 c d) = g (ix2 p d)) :
    k0_pay2 (F := Ideal) x w = g := by
  funext j
  obtain ⟨p, d, rfl⟩ : ∃ (p : Fin 2048) (d : Fin 64), j = ix2 p d := ⟨j 0, j 1, eq_ix2 j⟩
  exact (pay2_apply x w p d).trans (h p d)

/-- The same for the keys' tile. -/
theorem pay3_eq_of (x : Vec Ideal S2048x1024 .f32) (w : Vec Ideal S1024x64 .f32) (g : S2048x64.Idx → EReal)
    (h : ∀ (p : Fin 2048) (d : Fin 64), ∑ c : Fin 1024, x (ix2 p c) * w (ix2 c d) = g (ix2 p d)) :
    k0_pay3 (F := Ideal) x w = g := by
  funext j
  obtain ⟨p, d, rfl⟩ : ∃ (p : Fin 2048) (d : Fin 64), j = ix2 p d := ⟨j 0, j 1, eq_ix2 j⟩
  exact (pay3_apply x w p d).trans (h p d)

/-- The same for the values' tile. -/
theorem pay4_eq_of (x : Vec Ideal S2048x1024 .f32) (w : Vec Ideal S1024x64 .f32) (g : S2048x64.Idx → EReal)
    (h : ∀ (p : Fin 2048) (d : Fin 64), ∑ c : Fin 1024, x (ix2 p c) * w (ix2 c d) = g (ix2 p d)) :
    k0_pay4 (F := Ideal) x w = g := by
  funext j
  obtain ⟨p, d, rfl⟩ : ∃ (p : Fin 2048) (d : Fin 64), j = ix2 p d := ⟨j 0, j 1, eq_ix2 j⟩
  exact (pay4_apply x w p d).trans (h p d)

end Cert.KernelIdeal.ProjBody

end
-- ==== Proof.ProjArray.lean ====
/-
  The projection region: its three output arrays after the run.

  The grid has 32 points; point t reads rows 2048·t … 2048·t + 2047 of the flattened activations and the three weight
  matrices whole, and writes back rows 2048·t … 2048·t + 2047 of each of the three outputs. The 32 row blocks tile
  the 65536 rows, so each output array ends holding, at (r, d), the sum over c of activations (r, c) * weight (c, d):
  a function of the arrays as the region finds them.
-/
import proofs.«129465_j23201413332995_2_alg».proof.Proof.Gen.KernelIdeal.Frame
import proofs.«129465_j23201413332995_2_alg».proof.Proof.ProjBody
import Idealize.ShloMosaic.Lib.Pipeline.Value

set_option maxRecDepth 16384

noncomputable section

namespace Cert.KernelIdeal.ProjArray

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The flattened activations times a weight matrix: entry (r, d) is the sum over c of xf (r, c) * w (c, d). -/
def projFlat (xf : S65536x1024.Idx → EReal) (w : S1024x64.Idx → EReal) : S65536x64.Idx → EReal :=
  fun i => ∑ c : Fin 1024, xf (ix2 (i 0) c) * w (ix2 c (i 1))

theorem zero_offsets : (![0, 0] : Fin 2 → Nat) = fun _ => 0 := funext fun a => by fin_cases a <;> rfl

/-- The printed index maps over the grid: the activations' and the outputs' row block is the point's number, every
    other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back to the queries' array is block t of the product. -/
theorem flushed4_eq (c : Dev nD) (t : Fin cfg0.N) :
    (dat0 V c).flushed 4 t = ((cfg0.win 4).blk t).view.read (Elt Ideal) (projFlat (V c main_v0) (V c main_arg1)) := by
  show (cfg0.win 4).cut (grid0.coords t) ((dat0 V c).after 4 t) = _
  rw [after0_4]
  unfold out0_4
  rw [View.canon_unit_zero zero_offsets]
  simp only [View.ld_unit_zero (S := S2048x1024) zero_offsets, View.ld_unit_zero (S := S1024x64) zero_offsets]
  obtain ⟨a0, a1, b0, b1, c0, c1, d0, d1, o40, o41, o50, o51, o60, o61⟩ := idx_facts t
  show k0_pay2 (F := Ideal) (iblk0 V c 0 t) (iblk0 V c 1 t)
    = fun j => projFlat (V c main_v0) (V c main_arg1) (((cfg0.win 4).blk t).view.emb j)
  refine ProjBody.pay2_eq_of (iblk0 V c 0 t) (iblk0 V c 1 t) _ fun p d => ?_
  refine Finset.sum_congr rfl fun k _ => ?_
  congr 1
  · show V c main_v0 (((cfg0.win 0).blk t).view.emb (ix2 p k)) = V c main_v0 (ix2 ((((cfg0.win 4).blk t).view.emb (ix2 p d)) 0) k)
    refine congrArg (V c main_v0) (funext fun a => Fin.ext ?_)
    match a with
    | ⟨0, _⟩ => show win0_0.index t (0 : Fin 2) * 2048 + 1 * p.val = win0_4.index t (0 : Fin 2) * 2048 + 1 * p.val; omega
    | ⟨1, _⟩ => show win0_0.index t (1 : Fin 2) * 1024 + 1 * k.val = k.val; omega
  · show V c main_arg1 (((cfg0.win 1).blk t).view.emb (ix2 k d)) = V c main_arg1 (ix2 k ((((cfg0.win 4).blk t).view.emb (ix2 p d)) 1))
    refine congrArg (V c main_arg1) (funext fun a => Fin.ext ?_)
    match a with
    | ⟨0, _⟩ => show win0_1.index t (0 : Fin 2) * 1024 + 1 * k.val = k.val; omega
    | ⟨1, _⟩ => show win0_1.index t (1 : Fin 2) * 64 + 1 * d.val = win0_4.index t (1 : Fin 2) * 64 + 1 * d.val; omega

/-- An index of the queries' array is in point t's block iff each coordinate is in the block's range. -/
theorem mem_blk4 (t : Fin cfg0.N) (i : S65536x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v1_0).slice (win0_4.rect t)).set ↔ _
  rw [View.set_slice_whole, Rect.mem_set_unit]
  exact Iff.rfl

/-- Row r of the queries' array is in the block of point r / 2048. -/
theorem cover4 (i : S65536x64.Idx) : ∃ t : Fin cfg0.N, (cfg0.win 4).flush t = true ∧ i ∈ ((cfg0.win 4).blk t).view.set := by
  have hi0 : (i 0).val < 65536 := (i 0).isLt
  have hi1 : (i 1).val < 64 := (i 1).isLt
  have hN : cfg0.N = 32 := N_0
  have ht : (i 0).val / 2048 < cfg0.N := by rw [hN]; omega
  refine ⟨⟨(i 0).val / 2048, ht⟩, flush0_4 _, ?_⟩
  rw [mem_blk4]
  obtain ⟨a0, a1, b0, b1, c0, c1, d0, d1, o40, o41, o50, o51, o60, o61⟩ := idx_facts ⟨(i 0).val / 2048, ht⟩
  intro a
  match a with
  | ⟨0, _⟩ =>
    show win0_4.index ⟨(i 0).val / 2048, ht⟩ (0 : Fin 2) * 2048 ≤ (i 0).val ∧ (i 0).val < win0_4.index ⟨(i 0).val / 2048, ht⟩ (0 : Fin 2) * 2048 + 2048
    rw [o40]
    show (i 0).val / 2048 * 2048 ≤ (i 0).val ∧ (i 0).val < (i 0).val / 2048 * 2048 + 2048
    omega
  | ⟨1, _⟩ =>
    show win0_4.index ⟨(i 0).val / 2048, ht⟩ (1 : Fin 2) * 64 ≤ (i 1).val ∧ (i 1).val < win0_4.index ⟨(i 0).val / 2048, ht⟩ (1 : Fin 2) * 64 + 64
    rw [o41]
    omega

/-- The queries' array after the region: the activations times the weight matrix, entry by entry. -/
theorem final4 (c : Dev nD) : (dat0 V c).arrAt 4 cfg0.N = projFlat (V c main_v0) (V c main_arg1) :=
  (dat0 V c).arrAt_eq_of_cover 4 (projFlat (V c main_v0) (V c main_arg1)) (fun t _ => flushed4_eq V c t) cover4

/-- What point t writes back to the keys' array is block t of the product. -/
theorem flushed5_eq (c : Dev nD) (t : Fin cfg0.N) :
    (dat0 V c).flushed 5 t = ((cfg0.win 5).blk t).view.read (Elt Ideal) (projFlat (V c main_v0) (V c main_arg2)) := by
  show (cfg0.win 5).cut (grid0.coords t) ((dat0 V c).after 5 t) = _
  rw [after0_5]
  unfold out0_5
  rw [View.canon_unit_zero zero_offsets]
  simp only [View.ld_unit_zero (S := S2048x1024) zero_offsets, View.ld_unit_zero (S := S1024x64) zero_offsets]
  obtain ⟨a0, a1, b0, b1, c0, c1, d0, d1, o40, o41, o50, o51, o60, o61⟩ := idx_facts t
  show k0_pay3 (F := Ideal) (iblk0 V c 0 t) (iblk0 V c 2 t)
    = fun j => projFlat (V c main_v0) (V c main_arg2) (((cfg0.win 5).blk t).view.emb j)
  refine ProjBody.pay3_eq_of (iblk0 V c 0 t) (iblk0 V c 2 t) _ fun p d => ?_
  refine Finset.sum_congr rfl fun k _ => ?_
  congr 1
  · show V c main_v0 (((cfg0.win 0).blk t).view.emb (ix2 p k)) = V c main_v0 (ix2 ((((cfg0.win 5).blk t).view.emb (ix2 p d)) 0) k)
    refine congrArg (V c main_v0) (funext fun a => Fin.ext ?_)
    match a with
    | ⟨0, _⟩ => show win0_0.index t (0 : Fin 2) * 2048 + 1 * p.val = win0_5.index t (0 : Fin 2) * 2048 + 1 * p.val; omega
    | ⟨1, _⟩ => show win0_0.index t (1 : Fin 2) * 1024 + 1 * k.val = k.val; omega
  · show V c main_arg2 (((cfg0.win 2).blk t).view.emb (ix2 k d)) = V c main_arg2 (ix2 k ((((cfg0.win 5).blk t).view.emb (ix2 p d)) 1))
    refine congrArg (V c main_arg2) (funext fun a => Fin.ext ?_)
    match a with
    | ⟨0, _⟩ => show win0_2.index t (0 : Fin 2) * 1024 + 1 * k.val = k.val; omega
    | ⟨1, _⟩ => show win0_2.index t (1 : Fin 2) * 64 + 1 * d.val = win0_5.index t (1 : Fin 2) * 64 + 1 * d.val; omega

/-- An index of the keys' array is in point t's block iff each coordinate is in the block's range. -/
theorem mem_blk5 (t : Fin cfg0.N) (i : S65536x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v1_1).slice (win0_5.rect t)).set ↔ _
  rw [View.set_slice_whole, Rect.mem_set_unit]
  exact Iff.rfl

/-- Row r of the keys' array is in the block of point r / 2048. -/
theorem cover5 (i : S65536x64.Idx) : ∃ t : Fin cfg0.N, (cfg0.win 5).flush t = true ∧ i ∈ ((cfg0.win 5).blk t).view.set := by
  have hi0 : (i 0).val < 65536 := (i 0).isLt
  have hi1 : (i 1).val < 64 := (i 1).isLt
  have hN : cfg0.N = 32 := N_0
  have ht : (i 0).val / 2048 < cfg0.N := by rw [hN]; omega
  refine ⟨⟨(i 0).val / 2048, ht⟩, flush0_5 _, ?_⟩
  rw [mem_blk5]
  obtain ⟨a0, a1, b0, b1, c0, c1, d0, d1, o40, o41, o50, o51, o60, o61⟩ := idx_facts ⟨(i 0).val / 2048, ht⟩
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    rw [o50]
    show (i 0).val / 2048 * 2048 ≤ (i 0).val ∧ (i 0).val < (i 0).val / 2048 * 2048 + 2048
    omega
  | ⟨1, _⟩ =>
    show win0_5.index ⟨(i 0).val / 2048, ht⟩ (1 : Fin 2) * 64 ≤ (i 1).val ∧ (i 1).val < win0_5.index ⟨(i 0).val / 2048, ht⟩ (1 : Fin 2) * 64 + 64
    rw [o51]
    omega

/-- The keys' array after the region: the activations times the weight matrix, entry by entry. -/
theorem final5 (c : Dev nD) : (dat0 V c).arrAt 5 cfg0.N = projFlat (V c main_v0) (V c main_arg2) :=
  (dat0 V c).arrAt_eq_of_cover 5 (projFlat (V c main_v0) (V c main_arg2)) (fun t _ => flushed5_eq V c t) cover5

/-- What point t writes back to the values' array is block t of the product. -/
theorem flushed6_eq (c : Dev nD) (t : Fin cfg0.N) :
    (dat0 V c).flushed 6 t = ((cfg0.win 6).blk t).view.read (Elt Ideal) (projFlat (V c main_v0) (V c main_arg3)) := by
  show (cfg0.win 6).cut (grid0.coords t) ((dat0 V c).after 6 t) = _
  rw [after0_6]
  unfold out0_6
  rw [View.canon_unit_zero zero_offsets]
  simp only [View.ld_unit_zero (S := S2048x1024) zero_offsets, View.ld_unit_zero (S := S1024x64) zero_offsets]
  obtain ⟨a0, a1, b0, b1, c0, c1, d0, d1, o40, o41, o50, o51, o60, o61⟩ := idx_facts t
  show k0_pay4 (F := Ideal) (iblk0 V c 0 t) (iblk0 V c 3 t)
    = fun j => projFlat (V c main_v0) (V c main_arg3) (((cfg0.win 6).blk t).view.emb j)
  refine ProjBody.pay4_eq_of (iblk0 V c 0 t) (iblk0 V c 3 t) _ fun p d => ?_
  refine Finset.sum_congr rfl fun k _ => ?_
  congr 1
  · show V c main_v0 (((cfg0.win 0).blk t).view.emb (ix2 p k)) = V c main_v0 (ix2 ((((cfg0.win 6).blk t).view.emb (ix2 p d)) 0) k)
    refine congrArg (V c main_v0) (funext fun a => Fin.ext ?_)
    match a with
    | ⟨0, _⟩ => show win0_0.index t (0 : Fin 2) * 2048 + 1 * p.val = win0_6.index t (0 : Fin 2) * 2048 + 1 * p.val; omega
    | ⟨1, _⟩ => show win0_0.index t (1 : Fin 2) * 1024 + 1 * k.val = k.val; omega
  · show V c main_arg3 (((cfg0.win 3).blk t).view.emb (ix2 k d)) = V c main_arg3 (ix2 k ((((cfg0.win 6).blk t).view.emb (ix2 p d)) 1))
    refine congrArg (V c main_arg3) (funext fun a => Fin.ext ?_)
    match a with
    | ⟨0, _⟩ => show win0_3.index t (0 : Fin 2) * 1024 + 1 * k.val = k.val; omega
    | ⟨1, _⟩ => show win0_3.index t (1 : Fin 2) * 64 + 1 * d.val = win0_6.index t (1 : Fin 2) * 64 + 1 * d.val; omega

/-- An index of the values' array is in point t's block iff each coordinate is in the block's range. -/
theorem mem_blk6 (t : Fin cfg0.N) (i : S65536x64.Idx) :
    i ∈ ((cfg0.win 6).blk t).view.set ↔ ∀ a : Fin 2, win0_6.index t a * S2048x64.size a ≤ (i a).val ∧ (i a).val < win0_6.index t a * S2048x64.size a + S2048x64.size a := by
  show i ∈ ((View.whole main_v1_2).slice (win0_6.rect t)).set ↔ _
  rw [View.set_slice_whole, Rect.mem_set_unit]
  exact Iff.rfl

/-- Row r of the values' array is in the block of point r / 2048. -/
theorem cover6 (i : S65536x64.Idx) : ∃ t : Fin cfg0.N, (cfg0.win 6).flush t = true ∧ i ∈ ((cfg0.win 6).blk t).view.set := by
  have hi0 : (i 0).val < 65536 := (i 0).isLt
  have hi1 : (i 1).val < 64 := (i 1).isLt
  have hN : cfg0.N = 32 := N_0
  have ht : (i 0).val / 2048 < cfg0.N := by rw [hN]; omega
  refine ⟨⟨(i 0).val / 2048, ht⟩, flush0_6 _, ?_⟩
  rw [mem_blk6]
  obtain ⟨a0, a1, b0, b1, c0, c1, d0, d1, o40, o41, o50, o51, o60, o61⟩ := idx_facts ⟨(i 0).val / 2048, ht⟩
  intro a
  match a with
  | ⟨0, _⟩ =>
    show win0_6.index ⟨(i 0).val / 2048, ht⟩ (0 : Fin 2) * 2048 ≤ (i 0).val ∧ (i 0).val < win0_6.index ⟨(i 0).val / 2048, ht⟩ (0 : Fin 2) * 2048 + 2048
    rw [o60]
    show (i 0).val / 2048 * 2048 ≤ (i 0).val ∧ (i 0).val < (i 0).val / 2048 * 2048 + 2048
    omega
  | ⟨1, _⟩ =>
    show win0_6.index ⟨(i 0).val / 2048, ht⟩ (1 : Fin 2) * 64 ≤ (i 1).val ∧ (i 1).val < win0_6.index ⟨(i 0).val / 2048, ht⟩ (1 : Fin 2) * 64 + 64
    rw [o61]
    omega

/-- The values' array after the region: the activations times the weight matrix, entry by entry. -/
theorem final6 (c : Dev nD) : (dat0 V c).arrAt 6 cfg0.N = projFlat (V c main_v0) (V c main_arg3) :=
  (dat0 V c).arrAt_eq_of_cover 6 (projFlat (V c main_v0) (V c main_arg3)) (fun t _ => flushed6_eq V c t) cover6

end Cert.KernelIdeal.ProjArray

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«129465_j23201413332995_2_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibSoftmaxLaw.lean ====
/-
  Softmax-weighted sums on the extended reals: dividing late or early.

  For a row of scores s and a row of values v, write m for the row's maximum (the fold of max from ⊥),
  p j = exp (s j - m) for the weights and l = ∑ j, p j for their sum. One program forms (∑ j, p j * v j) / l, the
  other ∑ j, (p j / l) * v j. On the extended reals these agree as soon as every score and every value is a real
  number: then m is a real, every weight is a positive real, l is a positive real, and the identity is the real one
  (a sum times a constant is the sum of the products). Without that hypothesis it can fail (an infinite score makes
  a weight infinite and the quotient junk).

  Also here: the coercion of a finite real sum, that a finite sum of products of reals is a real, and the three float
  patterns the two programs spell for the score scale, with 1024 ^ (-1/2) = 1/32.
-/
import Idealize.ShloMosaic.PureOps.Ideal

noncomputable section

namespace Attn

open Idealize.ShloMosaic

/-! ## Real sums and real maxima inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose F hF using hf
  choose G hG using hg
  refine ⟨∑ i, F i * G i, ?_⟩
  rw [coe_sum]
  exact Finset.sum_congr rfl fun i _ => by rw [hF, hG, EReal.coe_mul]

/-- The fold of max from ⊥ over finitely many reals is ⊥ or a real. -/
theorem fold_max_bot_or_real {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; rfl
  | insert a s ha ih =>
    right
    rw [Finset.fold_insert ha]
    rcases ih with h | ⟨r, h⟩
    · exact ⟨f a, by rw [h, max_eq_left bot_le]⟩
    · exact ⟨max (f a) r, by rw [h]; exact (EReal.coe_strictMono.monotone.map_max).symm⟩

variable {T : ℕ}

/-- The row maximum: the fold of max from ⊥ over the row. -/
def rowMax (s : Fin T → EReal) : EReal := (Finset.univ : Finset (Fin T)).fold max ⊥ s

/-- The maximum of a nonempty row of reals is a real. -/
theorem rowMax_real (S : Fin T → ℝ) (j0 : Fin T) : ∃ M : ℝ, rowMax (fun j => (S j : EReal)) = M := by
  rcases fold_max_bot_or_real Finset.univ S with h | h
  · exfalso
    have hle : ((S j0 : ℝ) : EReal) ≤ (Finset.univ : Finset (Fin T)).fold max (⊥ : EReal) (fun i => (S i : EReal)) :=
      (_root_.Finset.le_fold_max (c := ((S j0 : ℝ) : EReal))).2 (Or.inr ⟨j0, Finset.mem_univ _, le_rfl⟩)
    rw [h] at hle
    exact EReal.coe_ne_bot _ (le_bot_iff.mp hle)
  · exact h

/-- The weight of entry j: exp of the score minus the row maximum. -/
def weight (s : Fin T → EReal) (j : Fin T) : EReal := Ideal.exp (s j - rowMax s)

/-- The sum of the row's weights. -/
def denom (s : Fin T → EReal) : EReal := ∑ j, weight s j

/-- Divide late: the weighted sum of the values, divided by the sum of the weights. -/
def outLate (s v : Fin T → EReal) : EReal := Ideal.div (∑ j, weight s j * v j) (denom s)

/-- Divide early: every weight divided by the sum of the weights, then the weighted sum of the values. -/
def outEarly (s v : Fin T → EReal) : EReal := ∑ j, Ideal.div (weight s j) (denom s) * v j

/-- For a nonempty row of real scores and real values the two forms agree. -/
theorem outEarly_eq_outLate (s v : Fin T → EReal) (j0 : Fin T) (hs : ∀ j, ∃ r : ℝ, s j = r) (hv : ∀ j, ∃ r : ℝ, v j = r) :
    outEarly s v = outLate s v := by
  choose S hS using hs
  choose V hV using hv
  have hs' : s = fun j => (S j : EReal) := funext hS
  obtain ⟨M, hM⟩ := rowMax_real S j0
  have hw : ∀ j, weight s j = ((Real.exp (S j - M) : ℝ) : EReal) := fun j => by
    unfold weight
    rw [hs', hM, ← EReal.coe_sub, Ideal.exp_coe]
  have hL : denom s = ((∑ j, Real.exp (S j - M) : ℝ) : EReal) := by
    unfold denom
    rw [coe_sum]
    exact Finset.sum_congr rfl fun j _ => hw j
  have hpos : (0 : ℝ) < ∑ j, Real.exp (S j - M) :=
    Finset.sum_pos (fun j _ => Real.exp_pos _) ⟨j0, Finset.mem_univ _⟩
  unfold outEarly outLate
  rw [hL, Ideal.div_coe hpos.ne']
  have e1 : ∀ j, Ideal.div (weight s j) ((∑ j, Real.exp (S j - M) : ℝ) : EReal) * v j
      = ((Real.exp (S j - M) * (1 / ∑ j, Real.exp (S j - M)) * V j : ℝ) : EReal) := fun j => by
    rw [Ideal.div_coe hpos.ne', hw, hV, ← EReal.coe_mul, ← EReal.coe_mul]
  have e2 : ∀ j, weight s j * v j = ((Real.exp (S j - M) * V j : ℝ) : EReal) := fun j => by
    rw [hw, hV, ← EReal.coe_mul]
  rw [Finset.sum_congr rfl fun j _ => e1 j, Finset.sum_congr rfl fun j _ => e2 j, ← coe_sum, ← coe_sum, ← EReal.coe_mul]
  congr 1
  rw [Finset.sum_mul]
  exact Finset.sum_congr rfl fun j _ => by ring

/-! ## The float patterns of the score scale -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-- The pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern of -∞ denotes ⊥. -/
theorem ofBits_neg_inf : Ideal.ofBits .f32 0xFF800000#32 = ⊥ := by simp [Ideal.ofBits, Ideal.ieee]

/-- 1024 to the power -1/2 is 1/32: 1024 is the square of 32. -/
theorem rpow_1024 : Real.rpow 1024 (-(1 / 2)) = 1 / 32 := by
  rw [show (1024 : ℝ) = 32 ^ (2 : ℝ) by norm_num, Real.rpow_eq_pow, ← Real.rpow_mul (by norm_num)]
  norm_num [Real.rpow_neg_one]

/-- The reference's scale, the power of the two patterns, is the kernel's literal. -/
theorem scale_eq : Ideal.pow (Ideal.ofBits .f32 0x44800000#32) (Ideal.ofBits .f32 0xBF000000#32)
    = Ideal.ofBits .f32 0x3D000000#32 := by
  rw [ofBits_1024, ofBits_neg_half, ofBits_inv32, Ideal.pow_coe_coe, rpow_1024]

end Attn

end
-- ==== Proof.AttnBody.lean ====
/-
  The attention body: what one grid point stores.

  At a grid point the body holds a 512-row tile of queries and all 4096 rows of keys and of values of one batch
  element, each as a [1, rows, 64] block. Dropping the unit axis, it forms the 512 × 4096 scores (query row i against
  key row j, contracted over the 64 features, times the literal 1/32), takes each row's maximum, exponentiates the
  differences, sums each row of weights, multiplies the weights by the values and divides row i of that product by
  row i's sum. So entry (0, i, d) of the stored block is the divide-late softmax-weighted sum of the values' column d
  under the scores of query row i.
-/
import proofs.«129465_j23201413332995_2_alg».proof.Proof.Gen.KernelIdeal.Skeleton
import proofs.«129465_j23201413332995_2_alg».proof.Proof.LibDotRecord
import proofs.«129465_j23201413332995_2_alg».proof.Proof.LibTransposedRecord
import proofs.«129465_j23201413332995_2_alg».proof.Proof.LibRowOps
import proofs.«129465_j23201413332995_2_alg».proof.Proof.LibSoftmaxLaw
import Idealize.ShloMosaic.Lib.Pipeline.Value
import Idealize.ShloMosaic.Lib.ValueIdx
import Idealize.ShloMosaic.Lib.ValueLayout

noncomputable section

namespace Cert.KernelIdeal.AttnBody

open Idealize.ShloMosaic Idealize.ShloMosaic.ValueIdx Cert.KernelIdeal Cert.KernelIdeal.Gen

/-- The scores tile: queries against keys contracted over the features, times the scale literal. -/
def scores (q : FVec Ideal S512x64 .bf16) (k : FVec Ideal S4096x64 .bf16) : FVec Ideal S512x4096 .f32 :=
  mulf (matmul dot_S512x64_S4096x64_S512x4096_1_1_0_0_n_n none q k (constant S512x4096 .f32 0x00000000#32))
    (broadcast S512x4096 (Scalar.ofBits .f32 0x3D000000#32))

/-- Entry (i, j) of the scores tile. -/
theorem scores_apply (q : FVec Ideal S512x64 .bf16) (k : FVec Ideal S4096x64 .bf16) (i : Fin 512) (j : Fin 4096) :
    scores q k (ix2 i j) = (∑ e : Fin 64, q (ix2 i e) * k (ix2 j e)) * Ideal.ofBits .f32 0x3D000000#32 := by
  show FloatOps.matmul dot_S512x64_S4096x64_S512x4096_1_1_0_0_n_n none q k (constant S512x4096 .f32 0x00000000#32) (ix2 i j)
      * Ideal.ofBits .f32 0x3D000000#32 = _
  rw [TransposedRecord.matmul_zero_apply (M := 512) (K := 64) (N := 4096) dot_S512x64_S4096x64_S512x4096_1_1_0_0_n_n
    rfl rfl rfl rfl rfl rfl q k none i j]

/-- The weights tile: exp of each score minus its row's maximum. -/
def weights (s : FVec Ideal S512x4096 .f32) : FVec Ideal S512x4096 .f32 :=
  exp (subf s (broadcastTo S512x4096 (shapeCast S512x1
    (multiReduction .maximumf [1] S512 s 0xFF800000#32 reduces_S512x4096_S512 (.inl rfl) rfl) shapeCasts_S512_S512x1)
    broadcasts_S512x1_S512x4096))

/-- Entry (i, j) of the weights tile is the weight of entry j in row i. -/
theorem weights_apply (s : FVec Ideal S512x4096 .f32) (i : Fin 512) (j : Fin 4096) :
    weights s (ix2 i j) = Attn.weight (fun j : Fin 4096 => s (ix2 i j)) j := by
  have hmax : (broadcastTo S512x4096 (shapeCast S512x1
      (multiReduction .maximumf [1] S512 s 0xFF800000#32 reduces_S512x4096_S512 (.inl rfl) rfl) shapeCasts_S512_S512x1)
      broadcasts_S512x1_S512x4096) (ix2 i j) = Attn.rowMax (fun j : Fin 4096 => s (ix2 i j)) :=
    (Gcn.Lib.broadcastTo_a1_ab_apply _ broadcasts_S512x1_S512x4096 i j).trans <|
      (Gcn.Lib.shapeCast_a_a1_apply _ shapeCasts_S512_S512x1 i 0).trans <|
        Gcn.Lib.rowMax_apply s reduces_S512x4096_S512 (.inl rfl) rfl i
  show Ideal.exp (s (ix2 i j) - (broadcastTo S512x4096 (shapeCast S512x1
      (multiReduction .maximumf [1] S512 s 0xFF800000#32 reduces_S512x4096_S512 (.inl rfl) rfl) shapeCasts_S512_S512x1)
      broadcasts_S512x1_S512x4096) (ix2 i j)) = _
  rw [hmax]
  rfl

/-- The output tile: the weights times the values, each row divided by the row's sum of weights. -/
def normalized (s : FVec Ideal S512x4096 .f32) (v : FVec Ideal S4096x64 .bf16) : FVec Ideal S512x64 .f32 :=
  divf (matmul dot_S512x4096_S4096x64_S512x64_1_0_0_1_n_n none (truncf .bf16 (weights s) bitsLt_bf16_f32) v
      (constant S512x64 .f32 0x00000000#32))
    (broadcastTo S512x64 (shapeCast S512x1
      (multiReduction .add [1] S512 (weights s) 0x00000000#32 reduces_S512x4096_S512 (.inl rfl) rfl) shapeCasts_S512_S512x1)
      broadcasts_S512x1_S512x64)

/-- Entry (i, d) of the output tile: the divide-late weighted sum of column d of the values under row i's scores. -/
theorem normalized_apply (s : FVec Ideal S512x4096 .f32) (v : FVec Ideal S4096x64 .bf16) (i : Fin 512) (d : Fin 64) :
    normalized s v (ix2 i d) = Attn.outLate (fun j : Fin 4096 => s (ix2 i j)) (fun j : Fin 4096 => v (ix2 j d)) := by
  have hnum : FloatOps.matmul dot_S512x4096_S4096x64_S512x64_1_0_0_1_n_n none (truncf .bf16 (weights s) bitsLt_bf16_f32) v
      (constant S512x64 .f32 0x00000000#32) (ix2 i d)
        = ∑ j : Fin 4096, Attn.weight (fun j : Fin 4096 => s (ix2 i j)) j * v (ix2 j d) := by
    rw [DotRecord.matmul_zero_apply (M := 512) (K := 4096) (N := 64) dot_S512x4096_S4096x64_S512x64_1_0_0_1_n_n
      rfl rfl rfl rfl rfl rfl _ v none i d]
    refine Finset.sum_congr rfl fun j _ => ?_
    show weights s (ix2 i j) * v (ix2 j d) = _
    rw [weights_apply]
  have hden : (broadcastTo S512x64 (shapeCast S512x1
      (multiReduction .add [1] S512 (weights s) 0x00000000#32 reduces_S512x4096_S512 (.inl rfl) rfl) shapeCasts_S512_S512x1)
      broadcasts_S512x1_S512x64) (ix2 i d) = Attn.denom (fun j : Fin 4096 => s (ix2 i j)) := by
    refine (Gcn.Lib.broadcastTo_a1_ab_apply _ broadcasts_S512x1_S512x64 i d).trans <|
      (Gcn.Lib.shapeCast_a_a1_apply _ shapeCasts_S512_S512x1 i 0).trans <|
        (Gcn.Lib.rowSum_apply (weights s) reduces_S512x4096_S512 (.inl rfl) rfl i).trans ?_
    exact Finset.sum_congr rfl fun j _ => weights_apply s i j
  show Ideal.div (FloatOps.matmul dot_S512x4096_S4096x64_S512x64_1_0_0_1_n_n none (truncf .bf16 (weights s) bitsLt_bf16_f32) v
      (constant S512x64 .f32 0x00000000#32) (ix2 i d))
    ((broadcastTo S512x64 (shapeCast S512x1
      (multiReduction .add [1] S512 (weights s) 0x00000000#32 reduces_S512x4096_S512 (.inl rfl) rfl) shapeCasts_S512_S512x1)
      broadcasts_S512x1_S512x64) (ix2 i d)) = _
  rw [hnum, hden]
  rfl

/-- The body's one payload is these pieces composed, with the unit axis dropped from the loads and put back on the
    result. -/
theorem pay1_eq (q : Vec Ideal S1x512x64 .bf16) (k v : Vec Ideal S1x4096x64 .bf16) :
    k1_pay1 (F := Ideal) q k v
      = shapeCast S1x512x64 (normalized (scores (shapeCast S512x64 q shapeCasts_S1x512x64_S512x64)
            (shapeCast S4096x64 k shapeCasts_S1x4096x64_S4096x64)) (shapeCast S4096x64 v shapeCasts_S1x4096x64_S4096x64))
          shapeCasts_S512x64_S1x512x64 := rfl

/-- Entry (0, i, d) of the stored block: the divide-late softmax-weighted sum of the values' column d, the scores those
    of query row i against every key row. -/
theorem pay1_apply (q : Vec Ideal S1x512x64 .bf16) (k v : Vec Ideal S1x4096x64 .bf16) (i : Fin 512) (d : Fin 64) :
    k1_pay1 (F := Ideal) q k v (ix3 (0 : Fin 1) i d)
      = Attn.outLate
          (fun j : Fin 4096 => (∑ e : Fin 64, q (ix3 (0 : Fin 1) i e) * k (ix3 (0 : Fin 1) j e)) * Ideal.ofBits .f32 0x3D000000#32)
          (fun j : Fin 4096 => v (ix3 (0 : Fin 1) j d)) := by
  rw [pay1_eq, shapeCast_ab_1ab_apply, normalized_apply]
  congr 1
  · funext j
    rw [scores_apply]
    congr 1
    refine Finset.sum_congr rfl fun e _ => ?_
    rw [shapeCast_1ab_ab_apply, shapeCast_1ab_ab_apply]
  · funext j
    rw [shapeCast_1ab_ab_apply]

/-- The stored block is any function that agrees with that weighted sum entry by entry. -/
theorem pay1_eq_of (q : Vec Ideal S1x512x64 .bf16) (k v : Vec Ideal S1x4096x64 .bf16) (g : S1x512x64.Idx → EReal)
    (h : ∀ (i : Fin 512) (d : Fin 64),
      Attn.outLate
          (fun j : Fin 4096 => (∑ e : Fin 64, q (ix3 (0 : Fin 1) i e) * k (ix3 (0 : Fin 1) j e)) * Ideal.ofBits .f32 0x3D000000#32)
          (fun j : Fin 4096 => v (ix3 (0 : Fin 1) j d)) = g (ix3 (0 : Fin 1) i d)) :
    k1_pay1 (F := Ideal) q k v = g := by
  funext j
  obtain ⟨u, i, d, rfl⟩ : ∃ (u : Fin 1) (i : Fin 512) (d : Fin 64), j = ix3 u i d := ⟨j 0, j 1, j 2, eq_ix3 j⟩
  have hu : u = 0 := Fin.ext (by omega)
  subst hu
  exact (pay1_apply q k v i d).trans (h i d)

end Cert.KernelIdeal.AttnBody

end
-- ==== Proof.AttnArray.lean ====
/-
  The attention region: its output array after the run.

  The grid is 16 × 8: point t works on batch element t / 8 and query tile t % 8. It reads rows 512·(t % 8) … of that
  batch element's queries, all 4096 rows of its keys and of its values, and writes back rows 512·(t % 8) … of the
  output's batch element t / 8. The 128 blocks tile the [16, 4096, 64] output, so it ends holding, at (b, i, d), the
  divide-late softmax-weighted sum of the values (b, ·, d) under the scores of query row (b, i) against every key row
  of b: a function of the three arrays as the region finds them.
-/
import proofs.«129465_j23201413332995_2_alg».proof.Proof.Gen.KernelIdeal.Frame
import proofs.«129465_j23201413332995_2_alg».proof.Proof.AttnBody
import Idealize.ShloMosaic.Lib.Pipeline.Value

set_option maxRecDepth 16384

noncomputable section

namespace Cert.KernelIdeal.AttnArray

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Attention over given query, key and value arrays, dividing late, the scale the literal 1/32. -/
def attnOf (q k v : S16x4096x64.Idx → EReal) : S16x4096x64.Idx → EReal := fun i =>
  Attn.outLate
    (fun j : Fin 4096 => (∑ e : Fin 64, q (ix3 (i 0) (i 1) e) * k (ix3 (i 0) j e)) * Ideal.ofBits .f32 0x3D000000#32)
    (fun j : Fin 4096 => v (ix3 (i 0) j (i 2)))

theorem zero_offsets : (![0, 0, 0] : Fin 3 → Nat) = fun _ => 0 := funext fun a => by fin_cases a <;> rfl

/-- The printed index maps over the grid: the output's block is (t / 8, t % 8, 0); the queries' block is the
    output's; the keys' and the values' is (t / 8, 0, 0). -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-- What point t writes back is block t of attention over the arrays the region finds. -/
theorem flushed3_eq (c : Dev nD) (t : Fin cfg1.N) :
    (dat1 V c).flushed 3 t
      = ((cfg1.win 3).blk t).view.read (Elt Ideal) (attnOf (V c main_v2) (V c main_v3) (V c main_v4)) := by
  show (cfg1.win 3).cut (grid1.coords t) ((dat1 V c).after 3 t) = _
  rw [after1_3]
  unfold out1_3
  rw [View.canon_unit_zero zero_offsets]
  simp only [View.ld_unit_zero (S := S1x512x64) zero_offsets, View.ld_unit_zero (S := S1x4096x64) zero_offsets]
  obtain ⟨q0, q1, q2, k0, k1, k2, v0, v1, v2, o0, o1, o2⟩ := idx_facts t
  show k1_pay1 (F := Ideal) (iblk1 V c 0 t) (iblk1 V c 1 t) (iblk1 V c 2 t)
    = fun j => attnOf (V c main_v2) (V c main_v3) (V c main_v4) (((cfg1.win 3).blk t).view.emb j)
  refine AttnBody.pay1_eq_of (iblk1 V c 0 t) (iblk1 V c 1 t) (iblk1 V c 2 t) _ fun i d => ?_
  unfold attnOf
  congr 1
  · funext j
    congr 1
    refine Finset.sum_congr rfl fun e _ => ?_
    congr 1
    · show V c main_v2 (((cfg1.win 0).blk t).view.emb (ix3 (0 : Fin 1) i e))
        = V c main_v2 (ix3 ((((cfg1.win 3).blk t).view.emb (ix3 (0 : Fin 1) i d)) 0) ((((cfg1.win 3).blk t).view.emb (ix3 (0 : Fin 1) i d)) 1) e)
      refine congrArg (V c main_v2) (funext fun a => Fin.ext ?_)
      match a with
      | ⟨0, _⟩ => show win1_0.index t (0 : Fin 3) * 1 + 1 * 0 = win1_3.index t (0 : Fin 3) * 1 + 1 * 0; omega
      | ⟨1, _⟩ => show win1_0.index t (1 : Fin 3) * 512 + 1 * i.val = win1_3.index t (1 : Fin 3) * 512 + 1 * i.val; omega
      | ⟨2, _⟩ => show win1_0.index t (2 : Fin 3) * 64 + 1 * e.val = e.val; omega
    · show V c main_v3 (((cfg1.win 1).blk t).view.emb (ix3 (0 : Fin 1) j e))
        = V c main_v3 (ix3 ((((cfg1.win 3).blk t).view.emb (ix3 (0 : Fin 1) i d)) 0) j e)
      refine congrArg (V c main_v3) (funext fun a => Fin.ext ?_)
      match a with
      | ⟨0, _⟩ => show win1_1.index t (0 : Fin 3) * 1 + 1 * 0 = win1_3.index t (0 : Fin 3) * 1 + 1 * 0; omega
      | ⟨1, _⟩ => show win1_1.index t (1 : Fin 3) * 4096 + 1 * j.val = j.val; omega
      | ⟨2, _⟩ => show win1_1.index t (2 : Fin 3) * 64 + 1 * e.val = e.val; omega
  · funext j
    show V c main_v4 (((cfg1.win 2).blk t).view.emb (ix3 (0 : Fin 1) j d))
      = V c main_v4 (ix3 ((((cfg1.win 3).blk t).view.emb (ix3 (0 : Fin 1) i d)) 0) j ((((cfg1.win 3).blk t).view.emb (ix3 (0 : Fin 1) i d)) 2))
    refine congrArg (V c main_v4) (funext fun a => Fin.ext ?_)
    match a with
    | ⟨0, _⟩ => show win1_2.index t (0 : Fin 3) * 1 + 1 * 0 = win1_3.index t (0 : Fin 3) * 1 + 1 * 0; omega
    | ⟨1, _⟩ => show win1_2.index t (1 : Fin 3) * 4096 + 1 * j.val = j.val; omega
    | ⟨2, _⟩ => show win1_2.index t (2 : Fin 3) * 64 + 1 * d.val = win1_3.index t (2 : Fin 3) * 64 + 1 * d.val; omega

/-- An index of the output is in point t's block iff each coordinate is in the block's range. -/
theorem mem_blk3 (t : Fin cfg1.N) (i : S16x4096x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v5).slice (win1_3.rect t)).set ↔ _
  rw [View.set_slice_whole, Rect.mem_set_unit]
  exact Iff.rfl

/-- Entry (b, r, d) of the output is in the block of point 8·b + r / 512. -/
theorem cover3 (i : S16x4096x64.Idx) : ∃ t : Fin cfg1.N, (cfg1.win 3).flush t = true ∧ i ∈ ((cfg1.win 3).blk t).view.set := by
  have hi0 : (i 0).val < 16 := (i 0).isLt
  have hi1 : (i 1).val < 4096 := (i 1).isLt
  have hi2 : (i 2).val < 64 := (i 2).isLt
  have hN : cfg1.N = 128 := N_1
  have ht : (i 0).val * 8 + (i 1).val / 512 < cfg1.N := by rw [hN]; omega
  refine ⟨⟨(i 0).val * 8 + (i 1).val / 512, ht⟩, flush1_3 _, ?_⟩
  rw [mem_blk3]
  obtain ⟨q0, q1, q2, k0, k1, k2, v0, v1, v2, o0, o1, o2⟩ := idx_facts ⟨(i 0).val * 8 + (i 1).val / 512, ht⟩
  intro a
  match a with
  | ⟨0, _⟩ =>
    show win1_3.index ⟨(i 0).val * 8 + (i 1).val / 512, ht⟩ (0 : Fin 3) * 1 ≤ (i 0).val
      ∧ (i 0).val < win1_3.index ⟨(i 0).val * 8 + (i 1).val / 512, ht⟩ (0 : Fin 3) * 1 + 1
    rw [o0]
    show ((i 0).val * 8 + (i 1).val / 512) / 8 * 1 ≤ (i 0).val ∧ (i 0).val < ((i 0).val * 8 + (i 1).val / 512) / 8 * 1 + 1
    omega
  | ⟨1, _⟩ =>
    show win1_3.index ⟨(i 0).val * 8 + (i 1).val / 512, ht⟩ (1 : Fin 3) * 512 ≤ (i 1).val
      ∧ (i 1).val < win1_3.index ⟨(i 0).val * 8 + (i 1).val / 512, ht⟩ (1 : Fin 3) * 512 + 512
    rw [o1]
    show ((i 0).val * 8 + (i 1).val / 512) % 8 * 512 ≤ (i 1).val ∧ (i 1).val < ((i 0).val * 8 + (i 1).val / 512) % 8 * 512 + 512
    omega
  | ⟨2, _⟩ =>
    show win1_3.index ⟨(i 0).val * 8 + (i 1).val / 512, ht⟩ (2 : Fin 3) * 64 ≤ (i 2).val
      ∧ (i 2).val < win1_3.index ⟨(i 0).val * 8 + (i 1).val / 512, ht⟩ (2 : Fin 3) * 64 + 64
    rw [o2]
    omega

/-- The output array after the region: attention over the three arrays the region finds. -/
theorem final3 (c : Dev nD) : (dat1 V c).arrAt 3 cfg1.N = attnOf (V c main_v2) (V c main_v3) (V c main_v4) :=
  (dat1 V c).arrAt_eq_of_cover 3 (attnOf (V c main_v2) (V c main_v3) (V c main_v4)) (fun t _ => flushed3_eq V c t) cover3

end Cert.KernelIdeal.AttnArray

end
-- ==== Proof.AttentionSpec.lean ====
/-
  Single-head attention over projected activations, as functions of the four argument arrays.

  With x of shape [16, 4096, 1024] and three weight matrices of shape [1024, 64], the projections are
  proj x w (b, t, d) = ∑ c, x (b, t, c) * w (c, d). The score of query row i against key row j of batch element b is
  the contraction of the two projections over the 64 features, times a scale. The result at (b, i, d) is the
  softmax-weighted sum over j of the values' projection at (b, j, d), under row i's scores: one program divides late
  and spells the scale as the literal 1/32, the other divides early and spells it as 1024 ^ (-1/2). For real
  (finite) arguments every projection, score and value is a real, so the two agree.
-/
import proofs.«129465_j23201413332995_2_alg».proof.Proof.LibSoftmaxLaw
import Idealize.ShloMosaic.Lib.ValueIdx

noncomputable section

namespace Attn

open Idealize.ShloMosaic Idealize.ShloMosaic.ValueIdx

/-- The activations' index type, the weights' and the result's. -/
abbrev XIdx := (⟨3, ![16, 4096, 1024]⟩ : Shape).Idx
abbrev WIdx := (⟨2, ![1024, 64]⟩ : Shape).Idx
abbrev OIdx := (⟨3, ![16, 4096, 64]⟩ : Shape).Idx

/-- A projection: the activations' row (b, t) against column d of a weight matrix. -/
def proj (x : XIdx → EReal) (w : WIdx → EReal) (b : Fin 16) (t : Fin 4096) (d : Fin 64) : EReal :=
  ∑ c : Fin 1024, x (ix3 b t c) * w (ix2 c d)

/-- The scaled score of query row i against key row j of batch element b. -/
def scoreRow (x : XIdx → EReal) (wq wk : WIdx → EReal) (scale : EReal) (b : Fin 16) (i j : Fin 4096) : EReal :=
  (∑ e : Fin 64, proj x wq b i e * proj x wk b j e) * scale

/-- Attention dividing late, the scale the literal 1/32. -/
def attnLate (x : XIdx → EReal) (wq wk wv : WIdx → EReal) : OIdx → EReal := fun i =>
  outLate (scoreRow x wq wk (Ideal.ofBits .f32 0x3D000000#32) (i 0) (i 1)) (fun j => proj x wv (i 0) j (i 2))

/-- Attention dividing early, the scale 1024 to the power -1/2. -/
def attnEarly (x : XIdx → EReal) (wq wk wv : WIdx → EReal) : OIdx → EReal := fun i =>
  outEarly (scoreRow x wq wk (Ideal.pow (Ideal.ofBits .f32 0x44800000#32) (Ideal.ofBits .f32 0xBF000000#32)) (i 0) (i 1))
    (fun j => proj x wv (i 0) j (i 2))

/-- A projection of real arrays is a real. -/
theorem proj_real (x : XIdx → EReal) (w : WIdx → EReal) (hx : ∀ i, ∃ r : ℝ, x i = r) (hw : ∀ i, ∃ r : ℝ, w i = r)
    (b : Fin 16) (t : Fin 4096) (d : Fin 64) : ∃ r : ℝ, proj x w b t d = r :=
  sum_mul_real _ _ (fun c => hx (ix3 b t c)) (fun c => hw (ix2 c d))

/-- For real arguments the two forms agree. -/
theorem attnEarly_eq_attnLate (x : XIdx → EReal) (wq wk wv : WIdx → EReal)
    (hx : ∀ i, ∃ r : ℝ, x i = r) (hq : ∀ i, ∃ r : ℝ, wq i = r) (hk : ∀ i, ∃ r : ℝ, wk i = r) (hv : ∀ i, ∃ r : ℝ, wv i = r) :
    attnEarly x wq wk wv = attnLate x wq wk wv := by
  funext i
  unfold attnEarly attnLate
  rw [scale_eq]
  refine outEarly_eq_outLate _ _ (0 : Fin 4096) (fun j => ?_) (fun j => proj_real x wv hx hv (i 0) j (i 2))
  obtain ⟨r, hr⟩ := sum_mul_real (fun e : Fin 64 => proj x wq (i 0) (i 1) e) (fun e : Fin 64 => proj x wk (i 0) j e)
    (fun e => proj_real x wq hx hq (i 0) (i 1) e) (fun e => proj_real x wk hx hk (i 0) j e)
  refine ⟨r * (1 / 32), ?_⟩
  unfold scoreRow
  rw [hr, ofBits_inv32, EReal.coe_mul]

end Attn

end
-- ==== Proof.KernelValue.lean ====
/-
  The two regions composed through the host's reshapes.

  The program flattens the activations [16, 4096, 1024] to [65536, 1024] (row b·4096 + t), projects them in the first
  region, reshapes each projection [65536, 64] back to [16, 4096, 64], and runs attention over the three in the second
  region. Row-major order makes entry (b, t, d) of a reshaped projection the projection of row (b, t) of the original
  activations, so attention over the reshaped projections is attention (dividing late) as a function of the four
  argument arrays.
-/
import proofs.«129465_j23201413332995_2_alg».proof.Proof.ProjArray
import proofs.«129465_j23201413332995_2_alg».proof.Proof.AttnArray
import proofs.«129465_j23201413332995_2_alg».proof.Proof.AttentionSpec
import Idealize.ShloMosaic.Lib.Pipeline.Value

noncomputable section

namespace Cert.KernelIdeal.KernelValue

open Idealize.ShloMosaic Idealize.ShloMosaic.ValueIdx Cert.KernelIdeal Cert.KernelIdeal.Facts₀

/-- Entry (b, t, d) of a reshaped projection of the flattened activations is the projection of row (b, t). -/
theorem reshaped_proj (x : S16x4096x1024.Idx → EReal) (w : S1024x64.Idx → EReal) (b : Fin 16) (t : Fin 4096) (d : Fin 64) :
    shapeCast S16x4096x64 (ProjArray.projFlat (shapeCast S65536x1024 x shapeCasts_S16x4096x1024_S65536x1024) w)
        shapeCasts_S65536x64_S16x4096x64 (ix3 b t d)
      = Attn.proj x w b t d := by
  have hr : b.val * 4096 + t.val < 65536 := by omega
  rw [shapeCast_apply _ shapeCasts_S65536x64_S16x4096x64 (ix3 b t d) (ix2 (⟨b.val * 4096 + t.val, hr⟩ : Fin 65536) d)
    (by rw [Shape.rowMajor_val_two, Shape.rowMajor_val_three]; rfl)]
  unfold ProjArray.projFlat Attn.proj
  refine Finset.sum_congr rfl fun k _ => ?_
  congr 1
  exact shapeCast_apply x shapeCasts_S16x4096x1024_S65536x1024 _ (ix3 b t k)
    (by rw [Shape.rowMajor_val_two, Shape.rowMajor_val_three]; rfl)

/-- Attention over the three reshaped projections is attention of the argument arrays. -/
theorem attnOf_reshaped (x : S16x4096x1024.Idx → EReal) (wq wk wv : S1024x64.Idx → EReal) :
    AttnArray.attnOf
        (shapeCast S16x4096x64 (ProjArray.projFlat (shapeCast S65536x1024 x shapeCasts_S16x4096x1024_S65536x1024) wq) shapeCasts_S65536x64_S16x4096x64)
        (shapeCast S16x4096x64 (ProjArray.projFlat (shapeCast S65536x1024 x shapeCasts_S16x4096x1024_S65536x1024) wk) shapeCasts_S65536x64_S16x4096x64)
        (shapeCast S16x4096x64 (ProjArray.projFlat (shapeCast S65536x1024 x shapeCasts_S16x4096x1024_S65536x1024) wv) shapeCasts_S65536x64_S16x4096x64)
      = Attn.attnLate x wq wk wv := by
  funext i
  obtain ⟨b, t, d, rfl⟩ : ∃ (b : Fin 16) (t : Fin 4096) (d : Fin 64), i = ix3 b t d := ⟨i 0, i 1, i 2, eq_ix3 i⟩
  have hs : (fun j : Fin 4096 =>
        (∑ e : Fin 64,
          shapeCast S16x4096x64 (ProjArray.projFlat (shapeCast S65536x1024 x shapeCasts_S16x4096x1024_S65536x1024) wq) shapeCasts_S65536x64_S16x4096x64 (ix3 b t e)
          * shapeCast S16x4096x64 (ProjArray.projFlat (shapeCast S65536x1024 x shapeCasts_S16x4096x1024_S65536x1024) wk) shapeCasts_S65536x64_S16x4096x64 (ix3 b j e))
          * Ideal.ofBits .f32 0x3D000000#32)
      = Attn.scoreRow x wq wk (Ideal.ofBits .f32 0x3D000000#32) b t := by
    funext j
    unfold Attn.scoreRow
    congr 1
    refine Finset.sum_congr rfl fun e _ => ?_
    rw [reshaped_proj, reshaped_proj]
  have hv : (fun j : Fin 4096 =>
        shapeCast S16x4096x64 (ProjArray.projFlat (shapeCast S65536x1024 x shapeCasts_S16x4096x1024_S65536x1024) wv) shapeCasts_S65536x64_S16x4096x64 (ix3 b j d))
      = fun j : Fin 4096 => Attn.proj x wv b j d :=
    funext fun j => reshaped_proj x wv b j d
  exact congrArg₂ Attn.outLate hs hv

end Cert.KernelIdeal.KernelValue

end
-- ==== Proof.KernelRun.lean ====
/-
  The idealized kernel's run with its result named.

  Every weakly fair execution of the program terminates with the result buffer holding what the last region's
  write-backs leave of it, and the arguments as launched. Read back through the program: the last region's output is
  attention over the three arrays it finds; those are the host's reshapes of the first region's three outputs; those
  are the projections of the flattened activations the first region finds, which the host's first reshape made from
  the launch memory; no operation writes an argument. So on the extended reals the result is attention, dividing late,
  of the four argument arrays.
-/
import proofs.«129465_j23201413332995_2_alg».proof.Proof.Gen.KernelIdeal.Frame
import proofs.«129465_j23201413332995_2_alg».proof.Proof.KernelValue
import Idealize.ShloMosaic.Lib.StableHlo.Run

set_option maxRecDepth 16384

noncomputable section

namespace Cert.KernelIdeal.KernelRun

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run at any float instance: the result buffer ends at the contents the last boundary of the fold
    through the program gives it, the arguments as launched. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Run

variable (m : (ℓ : Loc nD τ sig) → Buf (Elt Ideal) ℓ) (ρ : Dev nD → PrngReg)

/-- The flattened activations the first region finds: the host's reshape of the launched argument. -/
theorem entry_flat (c : Dev nD) :
    (V1 m ρ c main_v0 : S65536x1024.Idx → EReal)
      = shapeCast S65536x1024 (m ((c : Thread nD τ).loc main_arg0)) shapeCasts_S16x4096x1024_S65536x1024 := by
  show StableHlo.after hostOps0 (W0 m ρ c) (Proc.devRef .tc main_v0) = _
  after_results
  rfl

/-- The weight matrices the first region finds are the launched arguments. -/
theorem entry_w1 (c : Dev nD) : (V1 m ρ c main_arg1 : S1024x64.Idx → EReal) = m ((c : Thread nD τ).loc main_arg1) := by
  show StableHlo.after hostOps0 (W0 m ρ c) (Proc.devRef .tc main_arg1) = _
  after_results
theorem entry_w2 (c : Dev nD) : (V1 m ρ c main_arg2 : S1024x64.Idx → EReal) = m ((c : Thread nD τ).loc main_arg2) := by
  show StableHlo.after hostOps0 (W0 m ρ c) (Proc.devRef .tc main_arg2) = _
  after_results
theorem entry_w3 (c : Dev nD) : (V1 m ρ c main_arg3 : S1024x64.Idx → EReal) = m ((c : Thread nD τ).loc main_arg3) := by
  show StableHlo.after hostOps0 (W0 m ρ c) (Proc.devRef .tc main_arg3) = _
  after_results

/-- The queries the second region finds: the host's reshape of the first region's first output. -/
theorem entry_q (c : Dev nD) :
    (V3 m ρ c main_v2 : S16x4096x64.Idx → EReal)
      = shapeCast S16x4096x64 ((dat0 (V1 m ρ) c).arrAt 4 cfg0.N) shapeCasts_S65536x64_S16x4096x64 := by
  show StableHlo.after hostOps1 (W2 m ρ c) (Proc.devRef .tc main_v2) = _
  after_results
  rw [show W2 m ρ c (Proc.devRef .tc main_v1_0) = (dat0 (V1 m ρ) c).arrAt 4 cfg0.N from W2_arr m ρ c 4]
  rfl

/-- The keys the second region finds. -/
theorem entry_k (c : Dev nD) :
    (V3 m ρ c main_v3 : S16x4096x64.Idx → EReal)
      = shapeCast S16x4096x64 ((dat0 (V1 m ρ) c).arrAt 5 cfg0.N) shapeCasts_S65536x64_S16x4096x64 := by
  show StableHlo.after hostOps1 (W2 m ρ c) (Proc.devRef .tc main_v3) = _
  after_results
  rw [show W2 m ρ c (Proc.devRef .tc main_v1_1) = (dat0 (V1 m ρ) c).arrAt 5 cfg0.N from W2_arr m ρ c 5]
  rfl

/-- The values the second region finds. -/
theorem entry_v (c : Dev nD) :
    (V3 m ρ c main_v4 : S16x4096x64.Idx → EReal)
      = shapeCast S16x4096x64 ((dat0 (V1 m ρ) c).arrAt 6 cfg0.N) shapeCasts_S65536x64_S16x4096x64 := by
  show StableHlo.after hostOps1 (W2 m ρ c) (Proc.devRef .tc main_v4) = _
  after_results
  rw [show W2 m ρ c (Proc.devRef .tc main_v1_2) = (dat0 (V1 m ρ) c).arrAt 6 cfg0.N from W2_arr m ρ c 6]
  rfl

/-- The result buffer at the last boundary is attention, dividing late, of the launched arguments. -/
theorem result_value (c : Dev nD) :
    (W4 m ρ c (Proc.devRef .tc main_v5) : S16x4096x64.Idx → EReal)
      = Attn.attnLate (m ((c : Thread nD τ).loc main_arg0)) (m ((c : Thread nD τ).loc main_arg1))
          (m ((c : Thread nD τ).loc main_arg2)) (m ((c : Thread nD τ).loc main_arg3)) := by
  rw [show W4 m ρ c (Proc.devRef .tc main_v5) = (dat1 (V3 m ρ) c).arrAt 3 cfg1.N from W4_arr m ρ c 3]
  rw [AttnArray.final3 (V3 m ρ) c, entry_q, entry_k, entry_v,
    ProjArray.final4 (V1 m ρ) c, ProjArray.final5 (V1 m ρ) c, ProjArray.final6 (V1 m ρ) c,
    entry_flat, entry_w1, entry_w2, entry_w3]
  exact KernelValue.attnOf_reshaped _ _ _ _

/-- Every weakly fair execution of the idealized kernel terminates with the result at attention of the arguments,
    and the arguments unchanged. -/
theorem run : θ_run defs (onTc (τ := τ) (main (F := Ideal))) ⟨m, fun _ => 0, ρ⟩ (fun r => ∀ c : Dev nD,
      r.2.mem ((c.tc : Thread nD τ).loc main_v5)
        = Attn.attnLate (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (run_result m ρ)

end Cert.KernelIdeal.KernelRun

end
-- ==== Proof.LibReduceLast3.lean ====
/-
  The host's one-axis `reduce` with a `maximum` body along the LAST axis of an `[a, b, c]` array, read at `(p, q)`.

  On the extended reals the reduce is the fold of `max` from its initial value over the `c` entries
  `x (p, q, k)`: the index of the reduced array with the coordinate `k` put back on axis 2 is `(p, q, k)`.
-/
import Idealize.ShloMosaic.PureOps.Ideal.Laws
import Idealize.ShloMosaic.Lib.ValueIdx

namespace LibReduceLast3

open Idealize.ShloMosaic Idealize.ShloMosaic.ValueIdx

variable {a b c : ℕ}

/-- Entry `(p, q)` of the reduced array with the coordinate `k` put back on the last axis is `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, h0⟩ =>
    show h.liftVal (ix2 p q) k.val ⟨0, h0⟩ = p.val
    unfold Shape.Reduces.liftVal
    split
    · next hc => exact absurd hc (show ¬ ((0 : ℕ) = 2) by decide)
    · split
      · rfl
      · next hlt => exact absurd (by decide : (0 : ℕ) < 2) hlt
  | ⟨1, h1⟩ =>
    show h.liftVal (ix2 p q) k.val ⟨1, h1⟩ = q.val
    unfold Shape.Reduces.liftVal
    split
    · next hc => exact absurd hc (show ¬ ((1 : ℕ) = 2) by decide)
    · split
      · rfl
      · next hlt => exact absurd (by decide : (1 : ℕ) < 2) hlt
  | ⟨2, h2⟩ =>
    show h.liftVal (ix2 p q) k.val ⟨2, h2⟩ = k.val
    unfold Shape.Reduces.liftVal
    split
    · rfl
    · next hc => exact absurd rfl hc

/-- The host's `reduce` with a `maximum` body along the last axis, at `(p, q)`: the fold of `max` from the initial
    value over the entries `x (p, q, k)`. -/
theorem hostMaxLast_apply {u : Shape} (x : (⟨3, ![a, b, c]⟩ : Shape).Idx → EReal) (init : u.Idx → EReal)
    (h' : Shape.ReducesTo ⟨3, ![a, b, c]⟩ [2] ⟨2, ![a, b]⟩) (h : Shape.Reduces ⟨3, ![a, b, c]⟩ [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  show (Finset.univ : Finset (Fin c)).fold max (init (Shape.Idx.first hu)) (x ∘ h.lift (ix2 p q)) = _
  exact congrArg (fun f => (Finset.univ : Finset (Fin c)).fold max (init (Shape.Idx.first hu)) f)
    (funext fun k => congrArg x (lift_last h p q k))

end LibReduceLast3
-- ==== Proof.RefRead.lean ====
/-
  The reference program read at an entry.

  Its run is a chain of host operations: three projections of the activations, the batched contraction of the
  queries' and keys' projections over the features times 1024 ^ (-1/2), the row maximum (a max-reduce from -∞, then a
  max with -∞ again), the exponentials of the differences, their row sums, each weight divided by its row's sum, and the
  batched product of those with the values' projection. Read at (b, i, d) this is attention dividing early.
-/
import proofs.«129465_j23201413332995_2_alg».proof.Proof.Gen.ReferenceIdeal.Read
import proofs.«129465_j23201413332995_2_alg».proof.Proof.AttentionSpec
import proofs.«129465_j23201413332995_2_alg».proof.Proof.LibReduceLast3
import Idealize.ShloMosaic.Lib.ValueIdx

noncomputable section

namespace Cert.ReferenceIdeal.RefRead

open Cert.ReferenceIdeal Cert.ReferenceIdeal.Gen Cert.ReferenceIdeal.Read Idealize.ShloMosaic Idealize.ShloMosaic.ValueIdx

abbrev XBuf := (⟨S16x4096x1024, .f32⟩ : BufTy).Contents (Elt Ideal)
abbrev WBuf := (⟨S1024x64, .f32⟩ : BufTy).Contents (Elt Ideal)

/-- The queries' projection at (b, t, e). -/
theorem v0_apply (x0 : XBuf) (x1 : WBuf) (b : Fin 16) (t : Fin 4096) (e : Fin 64) :
    val_main_v0 (F := Ideal) x0 x1 (ix3 b t e) = Attn.proj x0 x1 b t e := by
  rw [val_main_v0_apply]
  refine Finset.sum_congr rfl fun k _ => ?_
  have el : lidx_main_v0 (ix3 b t e) k = ix3 b t k :=
    funext fun a => Fin.ext (by match a with | ⟨0, _⟩ => rfl | ⟨1, _⟩ => rfl | ⟨2, _⟩ => rfl)
  have er : ridx_main_v0 (ix3 b t e) k = ix2 k e :=
    funext fun a => Fin.ext (by match a with | ⟨0, _⟩ => rfl | ⟨1, _⟩ => rfl)
  rw [el, er]

/-- The keys' projection at (b, t, e). -/
theorem v1_apply (x0 : XBuf) (x2 : WBuf) (b : Fin 16) (t : Fin 4096) (e : Fin 64) :
    val_main_v1 (F := Ideal) x0 x2 (ix3 b t e) = Attn.proj x0 x2 b t e := by
  rw [val_main_v1_apply]
  refine Finset.sum_congr rfl fun k _ => ?_
  have el : lidx_main_v1 (ix3 b t e) k = ix3 b t k :=
    funext fun a => Fin.ext (by match a with | ⟨0, _⟩ => rfl | ⟨1, _⟩ => rfl | ⟨2, _⟩ => rfl)
  have er : ridx_main_v1 (ix3 b t e) k = ix2 k e :=
    funext fun a => Fin.ext (by match a with | ⟨0, _⟩ => rfl | ⟨1, _⟩ => rfl)
  rw [el, er]

/-- The values' projection at (b, t, e). -/
theorem v2_apply (x0 : XBuf) (x3 : WBuf) (b : Fin 16) (t : Fin 4096) (e : Fin 64) :
    val_main_v2 (F := Ideal) x0 x3 (ix3 b t e) = Attn.proj x0 x3 b t e := by
  rw [val_main_v2_apply]
  refine Finset.sum_congr rfl fun k _ => ?_
  have el : lidx_main_v2 (ix3 b t e) k = ix3 b t k :=
    funext fun a => Fin.ext (by match a with | ⟨0, _⟩ => rfl | ⟨1, _⟩ => rfl | ⟨2, _⟩ => rfl)
  have er : ridx_main_v2 (ix3 b t e) k = ix2 k e :=
    funext fun a => Fin.ext (by match a with | ⟨0, _⟩ => rfl | ⟨1, _⟩ => rfl)
  rw [el, er]

/-- The scaled scores at (b, i, j). -/
theorem v6_apply (x0 : XBuf) (x1 x2 : WBuf) (b : Fin 16) (i j : Fin 4096) :
    val_main_v6 (F := Ideal) x0 x1 x2 (ix3 b i j)
      = Attn.scoreRow x0 x1 x2 (Ideal.pow (Ideal.ofBits .f32 0x44800000#32) (Ideal.ofBits .f32 0xBF000000#32)) b i j := by
  rw [val_main_v6_apply, val_main_v4_apply, val_main_v5_apply, val_main_v3_apply, val_main_cst_apply, val_main_cst_0_apply]
  show (∑ k : Fin 64, val_main_v0 (F := Ideal) x0 x1 (lidx_main_v4 (ix3 b i j) k) * val_main_v1 (F := Ideal) x0 x2 (ridx_main_v4 (ix3 b i j) k))
      * Ideal.pow (Ideal.ofBits .f32 0x44800000#32) (Ideal.ofBits .f32 0xBF000000#32) = _
  unfold Attn.scoreRow
  congr 1
  refine Finset.sum_congr rfl fun k _ => ?_
  have el : lidx_main_v4 (ix3 b i j) k = ix3 b i k :=
    funext fun a => Fin.ext (by match a with | ⟨0, _⟩ => rfl | ⟨1, _⟩ => rfl | ⟨2, _⟩ => rfl)
  have er : ridx_main_v4 (ix3 b i j) k = ix3 b j k :=
    funext fun a => Fin.ext (by match a with | ⟨0, _⟩ => rfl | ⟨1, _⟩ => rfl | ⟨2, _⟩ => rfl)
  rw [el, er, v0_apply, v1_apply]

/-- The broadcast row maximum at (b, i, j): the maximum of row (b, i) of the scores. -/
theorem v11_apply (x0 : XBuf) (x1 x2 : WBuf) (b : Fin 16) (i j : Fin 4096) :
    val_main_v11 (F := Ideal) x0 x1 x2 (ix3 b i j) = Attn.rowMax (fun j : Fin 4096 => val_main_v6 (F := Ideal) x0 x1 x2 (ix3 b i j)) := by
  rw [val_main_v11_apply, val_main_v10_apply, val_main_v9_apply, val_main_v8_apply, val_main_cst_2_apply]
  have e : idx_main_v10 (idx_main_v11 (ix3 b i j)) = ix2 b i :=
    funext fun a => Fin.ext (by match a with | ⟨0, _⟩ => rfl | ⟨1, _⟩ => rfl)
  rw [e]
  show max (Ideal.ofBits .f32 0xFF800000#32) (val_main_v7 (F := Ideal) x0 x1 x2 (ix2 b i)) = _
  unfold val_main_v7
  rw [LibReduceLast3.hostMaxLast_apply (val_main_v6 (F := Ideal) x0 x1 x2) (val_main_cst_1 (F := Ideal))
    reducesTo_S16x4096x4096_S16x4096_d2 (by decide) h_S_ b i]
  show max (Ideal.ofBits .f32 0xFF800000#32) ((Finset.univ : Finset (Fin 4096)).fold max (Ideal.ofBits .f32 0xFF800000#32)
    (fun k => val_main_v6 (F := Ideal) x0 x1 x2 (ix3 b i k))) = _
  rw [Attn.ofBits_neg_inf, max_eq_right bot_le]
  rfl

/-- The weights at (b, i, j). -/
theorem v13_apply (x0 : XBuf) (x1 x2 : WBuf) (b : Fin 16) (i j : Fin 4096) :
    val_main_v13 (F := Ideal) x0 x1 x2 (ix3 b i j)
      = Attn.weight (fun j : Fin 4096 => val_main_v6 (F := Ideal) x0 x1 x2 (ix3 b i j)) j := by
  rw [val_main_v13_apply, val_main_v12_apply, v11_apply]
  rfl

/-- The broadcast row sums at (b, i, j): the sum of row (b, i) of the weights. -/
theorem v16_apply (x0 : XBuf) (x1 x2 : WBuf) (b : Fin 16) (i j : Fin 4096) :
    val_main_v16 (F := Ideal) x0 x1 x2 (ix3 b i j)
      = Attn.denom (fun j : Fin 4096 => val_main_v6 (F := Ideal) x0 x1 x2 (ix3 b i j)) := by
  rw [val_main_v16_apply, val_main_v15_apply, val_main_v14_apply, val_main_cst_3_apply]
  show Ideal.ofBits .f32 0x00000000#32 + _ = _
  rw [Attn.ofBits_zero, zero_add]
  unfold Attn.denom
  refine Finset.sum_congr rfl fun k _ => ?_
  have e : idx_main_v14 (idx_main_v15 (idx_main_v16 (ix3 b i j))) k = ix3 b i k :=
    funext fun a => Fin.ext (by match a with | ⟨0, _⟩ => rfl | ⟨1, _⟩ => rfl | ⟨2, _⟩ => rfl)
  rw [e, v13_apply]

/-- The reference's result at (b, i, d): attention dividing early. -/
theorem v18_apply (x0 : XBuf) (x1 x2 x3 : WBuf) (b : Fin 16) (i : Fin 4096) (d : Fin 64) :
    val_main_v18 (F := Ideal) x0 x1 x2 x3 (ix3 b i d) = Attn.attnEarly x0 x1 x2 x3 (ix3 b i d) := by
  rw [val_main_v18_apply]
  unfold Attn.attnEarly Attn.outEarly
  refine Finset.sum_congr rfl fun k _ => ?_
  have el : lidx_main_v18 (ix3 b i d) k = ix3 b i k :=
    funext fun a => Fin.ext (by match a with | ⟨0, _⟩ => rfl | ⟨1, _⟩ => rfl | ⟨2, _⟩ => rfl)
  have er : ridx_main_v18 (ix3 b i d) k = ix3 b k d :=
    funext fun a => Fin.ext (by match a with | ⟨0, _⟩ => rfl | ⟨1, _⟩ => rfl | ⟨2, _⟩ => rfl)
  rw [el, er, val_main_v17_apply, v13_apply, v16_apply, v2_apply]
  have hs : (fun j : Fin 4096 => val_main_v6 (F := Ideal) x0 x1 x2 (ix3 b i j))
      = Attn.scoreRow x0 x1 x2 (Ideal.pow (Ideal.ofBits .f32 0x44800000#32) (Ideal.ofBits .f32 0xBF000000#32)) b i :=
    funext fun j => v6_apply x0 x1 x2 b i j
  rw [hs]
  rfl

/-- The reference's result array is attention dividing early. -/
theorem result_eq (x0 : XBuf) (x1 x2 x3 : WBuf) : val_main_v18 (F := Ideal) x0 x1 x2 x3 = Attn.attnEarly x0 x1 x2 x3 := by
  funext i
  obtain ⟨b, t, d, rfl⟩ : ∃ (b : Fin 16) (t : Fin 4096) (d : Fin 64), i = ix3 b t d := ⟨i 0, i 1, i 2, eq_ix3 i⟩
  exact v18_apply x0 x1 x2 x3 b t d

end Cert.ReferenceIdeal.RefRead

end
-- ==== Proof.Finite.lean ====
/-
  The precondition read: every entry of every argument array is a real number.

  The precondition is the conjunction of four tests "every |entry| is below +∞", one per argument array, each an
  and-reduction of a comparison to a single truth value. An and-reduction that is true makes every compared entry
  true; an extended real whose absolute value max x (-x) is strictly below ⊤ is neither ⊤ nor ⊥, hence a real.
-/
import proofs.«129465_j23201413332995_2_alg».proof.Pre_finite_inputs
import proofs.«129465_j23201413332995_2_alg».proof.Proof.Gen.Pre_finite_inputs
import Idealize.ShloMosaic.Lib.ReduceAll
import Idealize.ShloMosaic.Lib.Affine
import Idealize.ShloMosaic.PureOps.Ideal

noncomputable section

namespace Cert.Pre_finite_inputs.Finite

open Idealize.ShloMosaic Cert.Pre_finite_inputs

instance : Subsingleton S_.Idx := ⟨fun a b => funext fun d => d.elim0⟩

/-- An extended real whose absolute value compares below the pattern of +∞ is a real. -/
theorem real_of_abs_lt (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- Under the precondition the four argument arrays hold reals. -/
theorem reals_of_pre (x : FVec Ideal S16x4096x1024 .f32) (w1 w2 w3 : FVec Ideal S1024x64 .f32)
    (h : fn (F := Ideal) x w1 w2 w3 = fun _ => 1#1) :
    (∀ i, ∃ r : ℝ, x i = r) ∧ (∀ i, ∃ r : ℝ, w1 i = r) ∧ (∀ i, ∃ r : ℝ, w2 i = r) ∧ (∀ i, ∃ r : ℝ, w3 i = r) := by
  have h0 := congrFun h (fun d => d.elim0)
  dsimp only [fn, fn_part1] at h0
  obtain ⟨h012, h3⟩ := IntOp.andi_eq_one.mp h0
  obtain ⟨h01, h2⟩ := IntOp.andi_eq_one.mp h012
  obtain ⟨hx, h1⟩ := IntOp.andi_eq_one.mp h01
  exact ⟨fun i => real_of_abs_lt (x i) (Host.reduce_andi_all _ _ _ _ _ hx i),
    fun i => real_of_abs_lt (w1 i) (Host.reduce_andi_all _ _ _ _ _ h1 i),
    fun i => real_of_abs_lt (w2 i) (Host.reduce_andi_all _ _ _ _ _ h2 i),
    fun i => real_of_abs_lt (w3 i) (Host.reduce_andi_all _ _ _ _ _ h3 i)⟩

end Cert.Pre_finite_inputs.Finite

end
-- ==== Proof.lean ====
/- Single-head attention over projected activations: a two-region kernel against a jnp reference, on the extended reals.

   Both programs project the activations x [16, 4096, 1024] through three weight matrices [1024, 64] to queries, keys and
   values, score every query row against every key row of its batch element (contraction over the 64 features, times
   1/32), and return the softmax-weighted sums of the values. They differ in three places, none of which changes the
   value on finite inputs:
   * the kernel flattens the activations, computes the projections tile by tile and reshapes them back, and computes
     attention query tile by query tile; sums are sums in any tiling, and row-major reshapes keep (b, t) with its row;
   * the kernel multiplies the scores by the literal 1/32, the reference by 1024 ^ (-1/2), which is 1/32;
   * the kernel divides the weighted sum by the row's sum of weights, the reference divides every weight first. For
     real scores and values the row maximum is a real, every weight a positive real and their sum a positive real, so
     this is the real identity (∑ p v) / l = ∑ (p / l) v. This is where the precondition (every input finite) is used:
     with an infinite input the two forms can differ.
   The kernel's run and its result array: Proof/KernelRun.lean (over Proof/ProjArray.lean, Proof/AttnArray.lean and
   Proof/KernelValue.lean, the bodies in Proof/ProjBody.lean and Proof/AttnBody.lean); the reference read at an
   entry: Proof/RefRead.lean; the two forms and their equality: Proof/LibSoftmaxLaw.lean and Proof/AttentionSpec.lean; the
   precondition read: Proof/Finite.lean. The ideal pass rewrote nothing, so the idealization claim is trivial. -/
import proofs.«129465_j23201413332995_2_alg».proof.Defs
import proofs.«129465_j23201413332995_2_alg».proof.Proof.Gen.Kernel
import proofs.«129465_j23201413332995_2_alg».proof.Proof.Gen.Kernel.Skeleton
import proofs.«129465_j23201413332995_2_alg».proof.Proof.Gen.Kernel.Launch
import proofs.«129465_j23201413332995_2_alg».proof.Proof.Gen.Kernel.Points
import proofs.«129465_j23201413332995_2_alg».proof.Proof.Gen.Kernel.Frame
import proofs.«129465_j23201413332995_2_alg».proof.Proof.Gen.KernelIdeal
import proofs.«129465_j23201413332995_2_alg».proof.Proof.Gen.KernelIdeal.Skeleton
import proofs.«129465_j23201413332995_2_alg».proof.Proof.Gen.KernelIdeal.Launch
import proofs.«129465_j23201413332995_2_alg».proof.Proof.Gen.KernelIdeal.Points
import proofs.«129465_j23201413332995_2_alg».proof.Proof.Gen.KernelIdeal.Frame
import proofs.«129465_j23201413332995_2_alg».proof.Proof.Gen.ReferenceIdeal
import proofs.«129465_j23201413332995_2_alg».proof.Proof.Gen.ReferenceIdeal.Run
import proofs.«129465_j23201413332995_2_alg».proof.Proof.Gen.ReferenceIdeal.Read
import proofs.«129465_j23201413332995_2_alg».proof.Proof.Gen.Pre_finite_inputs
import proofs.«129465_j23201413332995_2_alg».proof.Proof.KernelRun
import proofs.«129465_j23201413332995_2_alg».proof.Proof.RefRead
import proofs.«129465_j23201413332995_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories agreeing on the arguments, both programs end with attention of the arguments in their result: the
    kernel dividing late, the reference dividing early, equal because the precondition makes every argument entry a real. -/
theorem algebraic : Cert.algebraic_KernelIdeal_ReferenceIdeal := by
  intro m ρ m' ρ' hpre hagree
  refine ⟨fun c => Attn.attnLate (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefRead.result_eq,
    (hagree c).1, (hagree c).2.1, (hagree c).2.2.1, (hagree c).2.2.2]
  obtain ⟨hx, h1, h2, h3⟩ := Cert.Pre_finite_inputs.Finite.reals_of_pre _ _ _ _ (hpre c)
  exact Attn.attnEarly_eq_attnLate _ _ _ _ hx h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
